-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S256x32x512 : Shape := ⟨3, ![256, 32, 512]⟩
abbrev S256x64x512 : Shape := ⟨3, ![256, 64, 512]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S256x32x512 : S_.BroadcastsInDim S256x32x512 (![] : Fin 0 → Fin S256x32x512.rank)
  reducesTo_S256x32x512_S_d0_1_2 : S256x32x512.ReducesTo [0, 1, 2] S_
  bcast_S_S256x64x512 : S_.BroadcastsInDim S256x64x512 (![] : Fin 0 → Fin S256x64x512.rank)
  reducesTo_S256x64x512_S_d0_1_2 : S256x64x512.ReducesTo [0, 1, 2] S_
  reducesTo_S_S_d : S_.ReducesTo [] S_

variable [Facts]

def fn_part1 {F : FTy → Type} [FloatOps F] (main_arg4 : FVec F S_ .f32) (main_v13 : IVec S_ 1) (main_v16 : IVec S256x64x512 1) : IVec S_ 1 :=
  let main_c_5 : IVec S_ 1 := constantI S_ 1 1#1
  let main_v17 : IVec S_ 1 := (fun x v => Host.reduce IntOp.andi x v reducesTo_S256x64x512_S_d0_1_2 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S256x512 .f32) (main_arg1 : FVec F S256x512 .f32) (main_arg2 : FVec F S256x32x512 .f32) (main_arg3 : FVec F S256x64x512 .f32) (main_arg4 : FVec F S_ .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256x32x512 .f32 := Host.absf main_arg2
  let main_cst_2 : FVec F S_ .f32 := constant S_ .f32 0x7F800000#32
  let main_v10 : FVec F S256x32x512 .f32 := broadcastInDim S256x32x512 ![] bcast_S_S256x32x512 main_cst_2
  let main_v11 : IVec S256x32x512 1 := cmpf .olt main_v9 main_v10
  let main_c_3 : IVec S_ 1 := constantI S_ 1 1#1
  let main_v12 : IVec S_ 1 := (fun x v => Host.reduce IntOp.andi x v reducesTo_S256x32x512_S_d0_1_2 h_S_) main_v11 main_c_3
  let main_v13 : IVec S_ 1 := andi main_v8 main_v12
  let main_v14 : FVec F S256x64x512 .f32 := Host.absf main_arg3
  let main_cst_4 : FVec F S_ .f32 := constant S_ .f32 0x7F800000#32
  let main_v15 : FVec F S256x64x512 .f32 := broadcastInDim S256x64x512 ![] bcast_S_S256x64x512 main_cst_4
  let main_v16 : IVec S256x64x512 1 := cmpf .olt main_v14 main_v15
  fn_part1 (F := F) main_arg4 main_v13 main_v16
-- ==== Kernel.lean ====
abbrev S256x512 : Shape := ⟨2, ![256, 512]⟩
abbrev S256x32x512 : Shape := ⟨3, ![256, 32, 512]⟩
abbrev S256x64x512 : Shape := ⟨3, ![256, 64, 512]⟩
abbrev S_ : Shape := ⟨0, ![]⟩
abbrev S1x1 : Shape := ⟨2, ![1, 1]⟩
abbrev S256x256 : Shape := ⟨2, ![256, 256]⟩
abbrev S128x512 : Shape := ⟨2, ![128, 512]⟩
abbrev S8x512 : Shape := ⟨2, ![8, 512]⟩
abbrev S128x32x512 : Shape := ⟨3, ![128, 32, 512]⟩
abbrev S8x64x512 : Shape := ⟨3, ![8, 64, 512]⟩
abbrev S8x128 : Shape := ⟨2, ![8, 128]⟩
abbrev S512x128 : Shape := ⟨2, ![512, 128]⟩
abbrev S128x32 : Shape := ⟨2, ![128, 32]⟩
abbrev S128x32x1 : Shape := ⟨3, ![128, 32, 1]⟩
abbrev S8x64 : Shape := ⟨2, ![8, 64]⟩
abbrev S8x64x1 : Shape := ⟨3, ![8, 64, 1]⟩
abbrev S4096x512 : Shape := ⟨2, ![4096, 512]⟩
abbrev S512x512 : Shape := ⟨2, ![512, 512]⟩
abbrev S512x4096 : Shape := ⟨2, ![512, 4096]⟩
abbrev S8x64x4096 : Shape := ⟨3, ![8, 64, 4096]⟩
abbrev S8x4096 : Shape := ⟨2, ![8, 4096]⟩
abbrev S8x128x32 : Shape := ⟨3, ![8, 128, 32]⟩

abbrev nBuf : Space → Nat
  | .hbm => 11
  | .vmem => 11
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x32x512, .f32⟩
  | .hbm, ⟨3, _⟩ => ⟨S256x64x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S256x256, .f32⟩
  | .hbm, ⟨10, _⟩ => ⟨S256x256, .f32⟩
  | .local _ .vmem, ⟨0, _⟩ => ⟨S1x1, .f32⟩
  | .local _ .vmem, ⟨1, _⟩ => ⟨S128x512, .f32⟩
  | .local _ .vmem, ⟨2, _⟩ => ⟨S128x512, .f32⟩
  | .local _ .vmem, ⟨3, _⟩ => ⟨S8x512, .f32⟩
  | .local _ .vmem, ⟨4, _⟩ => ⟨S8x512, .f32⟩
  | .local _ .vmem, ⟨5, _⟩ => ⟨S128x32x512, .f32⟩
  | .local _ .vmem, ⟨6, _⟩ => ⟨S128x32x512, .f32⟩
  | .local _ .vmem, ⟨7, _⟩ => ⟨S8x64x512, .f32⟩
  | .local _ .vmem, ⟨8, _⟩ => ⟨S8x64x512, .f32⟩
  | .local _ .vmem, ⟨9, _⟩ => ⟨S8x128, .f32⟩
  | .local _ .vmem, ⟨10, _⟩ => ⟨S8x128, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S128x512_S128x512_0_0 : ∀ a, (![0, 0] : Fin 2 → Nat) a + S128x512.size a ≤ S128x512.size a
  h_S128x512 : 0 < S128x512.numel
  inb_S8x512_S8x512_0_0 : ∀ a, (![0, 0] : Fin 2 → Nat) a + S8x512.size a ≤ S8x512.size a
  h_S8x512 : 0 < S8x512.numel
  transposes_S128x512_p1_0_S512x128 : S128x512.Transposes [1, 0] S512x128
  inb_S128x32x512_S128x32x512_0_0_0 : ∀ a, (![0, 0, 0] : Fin 3 → Nat) a + S128x32x512.size a ≤ S128x32x512.size a
  h_S128x32x512 : 0 < S128x32x512.numel
  inb_S8x64x512_S8x64x512_0_0_0 : ∀ a, (![0, 0, 0] : Fin 3 → Nat) a + S8x64x512.size a ≤ S8x64x512.size a
  h_S8x64x512 : 0 < S8x64x512.numel
  reduces_S128x32x512_S128x32 : S128x32x512.Reduces [2] S128x32
  shapeCasts_S128x32_S128x32x1 : S128x32.ShapeCasts S128x32x1
  broadcasts_S128x32x1_S128x32x512 : S128x32x1.Broadcasts S128x32x512
  reduces_S8x64x512_S8x64 : S8x64x512.Reduces [2] S8x64
  shapeCasts_S8x64_S8x64x1 : S8x64.ShapeCasts S8x64x1
  broadcasts_S8x64x1_S8x64x512 : S8x64x1.Broadcasts S8x64x512
  bitsLt_bf16_f32 : FTy.bits .bf16 < FTy.bits .f32
  shapeCasts_S128x32x512_S4096x512 : S128x32x512.ShapeCasts S4096x512
  shapeCasts_S8x64x512_S512x512 : S8x64x512.ShapeCasts S512x512
  transposes_S4096x512_p1_0_S512x4096 : S4096x512.Transposes [1, 0] S512x4096
  shapeCasts_S512x4096_S8x64x4096 : S512x4096.ShapeCasts S8x64x4096
  reduces_S8x64x4096_S8x4096 : S8x64x4096.Reduces [1] S8x4096
  shapeCasts_S8x4096_S8x128x32 : S8x4096.ShapeCasts S8x128x32
  reduces_S8x128x32_S8x128 : S8x128x32.Reduces [2] S8x128
  inb_S8x128_S8x128_0_0 : ∀ a, (![0, 0] : Fin 2 → Nat) a + S8x128.size a ≤ S8x128.size a
  h_S8x128 : 0 < S8x128.numel
  transposes_S256x256_S256x256_1_0 : S256x256.Transposes [1, 0] S256x256
  dot_S8x512_S512x128_S8x128_1_0_0_1_n_n_wf : DotDims.WF S8x512 S512x128 S8x128 [1] [0] [0] [1] [] []
  dot_S512x512_S512x4096_S512x4096_1_0_0_1_n_n_wf : DotDims.WF S512x512 S512x4096 S512x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S256x512.size a
  hwx0_1 : ∀ i : grid0.Coords, EltTy.bits .f32 = 32 ∨ (Rect.block (s := S256x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S256x512.size a
  hwx0_2 : ∀ i : grid0.Coords, EltTy.bits .f32 = 32 ∨ (Rect.block (s := S256x512) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x32x512.size a ≤ S256x32x512.size a
  hwx0_3 : ∀ i : grid0.Coords, EltTy.bits .f32 = 32 ∨ (Rect.block (s := S256x32x512) S128x32x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x64x512.size a ≤ S256x64x512.size a
  hwx0_4 : ∀ i : grid0.Coords, EltTy.bits .f32 = 32 ∨ (Rect.block (s := S256x64x512) S8x64x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S256x256.size a
  hwx0_5 : ∀ i : grid0.Coords, EltTy.bits .f32 = 32 ∨ (Rect.block (s := S256x256) S8x128.size (cc0_transform_5 i) (hinb0_5 i)).WholeWords (EltTy.packing .f32)

variable [Facts₀]

def dot_S8x512_S512x128_S8x128_1_0_0_1_n_n : DotDims S8x512 S512x128 S8x128 where
  lhsContracting := [1]
  rhsContracting := [0]
  lhsNonContracting := [0]
  rhsNonContracting := [1]
  lhsBatch := []
  rhsBatch := []
  wf := dot_S8x512_S512x128_S8x128_1_0_0_1_n_n_wf
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf

abbrev win0_0 : Pipeline.Window sig grid0 :=
  Pipeline.Window.ofSpec (Memref.whole main_v2) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x32x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S8x64x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x512 : Shape := ⟨2, ![256, 512]⟩
abbrev S256x32x512 : Shape := ⟨3, ![256, 32, 512]⟩
abbrev S256x64x512 : Shape := ⟨3, ![256, 64, 512]⟩
abbrev S_ : Shape := ⟨0, ![]⟩
abbrev S512x256 : Shape := ⟨2, ![512, 256]⟩
abbrev S256x256 : Shape := ⟨2, ![256, 256]⟩
abbrev S256x32 : Shape := ⟨2, ![256, 32]⟩
abbrev S256x32x1 : Shape := ⟨3, ![256, 32, 1]⟩
abbrev S256x64 : Shape := ⟨2, ![256, 64]⟩
abbrev S256x64x1 : Shape := ⟨3, ![256, 64, 1]⟩
abbrev S256x64x256x32 : Shape := ⟨4, ![256, 64, 256, 32]⟩
abbrev S256x256x32x64 : Shape := ⟨4, ![256, 256, 32, 64]⟩
abbrev S256x256x32 : Shape := ⟨3, ![256, 256, 32]⟩

abbrev nBuf : Space → Nat
  | .hbm => 50
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x32x512, .f32⟩
  | .hbm, ⟨3, _⟩ => ⟨S256x64x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S512x256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x32x512, .f32⟩
  | .hbm, ⟨13, _⟩ => ⟨S_, .f32⟩
  | .hbm, ⟨14, _⟩ => ⟨S256x32, .f32⟩
  | .hbm, ⟨15, _⟩ => ⟨S256x32x1, .f32⟩
  | .hbm, ⟨16, _⟩ => ⟨S256x32x1, .f32⟩
  | .hbm, ⟨17, _⟩ => ⟨S_, .f32⟩
  | .hbm, ⟨18, _⟩ => ⟨S256x32x1, .f32⟩
  | .hbm, ⟨19, _⟩ => ⟨S256x32x1, .f32⟩
  | .hbm, ⟨20, _⟩ => ⟨S256x32x512, .f32⟩
  | .hbm, ⟨21, _⟩ => ⟨S256x32x512, .f32⟩
  | .hbm, ⟨22, _⟩ => ⟨S256x64x512, .f32⟩
  | .hbm, ⟨23, _⟩ => ⟨S_, .f32⟩
  | .hbm, ⟨24, _⟩ => ⟨S256x64, .f32⟩
  | .hbm, ⟨25, _⟩ => ⟨S256x64x1, .f32⟩
  | .hbm, ⟨26, _⟩ => ⟨S256x64x1, .f32⟩
  | .hbm, ⟨27, _⟩ => ⟨S_, .f32⟩
  | .hbm, ⟨28, _⟩ => ⟨S256x64x1, .f32⟩
  | .hbm, ⟨29, _⟩ => ⟨S256x64x1, .f32⟩
  | .hbm, ⟨30, _⟩ => ⟨S256x64x512, .f32⟩
  | .hbm, ⟨31, _⟩ => ⟨S256x64x512, .f32⟩
  | .hbm, ⟨32, _⟩ => ⟨S256x64x256x32, .f32⟩
  | .hbm, ⟨33, _⟩ => ⟨S256x256x32x64, .f32⟩
  | .hbm, ⟨34, _⟩ => ⟨S_, .f32⟩
  | .hbm, ⟨35, _⟩ => ⟨S256x256x32, .f32⟩
  | .hbm, ⟨36, _⟩ => ⟨S_, .f32⟩
  | .hbm, ⟨37, _⟩ => ⟨S256x256, .f32⟩
  | .hbm, ⟨38, _⟩ => ⟨S_, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S256x256, .f32⟩
  | .hbm, ⟨43, _⟩ => ⟨S_, .f32⟩
  | .hbm, ⟨44, _⟩ => ⟨S256x256, .f32⟩
  | .hbm, ⟨45, _⟩ => ⟨S256x256, .f32⟩
  | .hbm, ⟨46, _⟩ => ⟨S_, .f32⟩
  | .hbm, ⟨47, _⟩ => ⟨S256x256, .f32⟩
  | .hbm, ⟨48, _⟩ => ⟨S256x256, .f32⟩
  | .hbm, ⟨49, _⟩ => ⟨S256x256, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  transposes_S256x512_S512x256_1_0 : S256x512.Transposes [1, 0] S512x256
  bcast_S_S256x256 : S_.BroadcastsInDim S256x256 (![] : Fin 0 → Fin S256x256.rank)
  reducesTo_S256x32x512_S256x32_d2 : S256x32x512.ReducesTo [2] S256x32
  h_S_ : 0 < S_.numel
  bcast_S256x32_S256x32x1_0_1 : S256x32.BroadcastsInDim S256x32x1 (![0, 1] : Fin 2 → Fin S256x32x1.rank)
  bcast_S_S256x32x1 : S_.BroadcastsInDim S256x32x1 (![] : Fin 0 → Fin S256x32x1.rank)
  bcast_S256x32x1_S256x32x512_0_1_2 : S256x32x1.BroadcastsInDim S256x32x512 (![0, 1, 2] : Fin 3 → Fin S256x32x512.rank)
  reducesTo_S256x64x512_S256x64_d2 : S256x64x512.ReducesTo [2] S256x64
  bcast_S256x64_S256x64x1_0_1 : S256x64.BroadcastsInDim S256x64x1 (![0, 1] : Fin 2 → Fin S256x64x1.rank)
  bcast_S_S256x64x1 : S_.BroadcastsInDim S256x64x1 (![] : Fin 0 → Fin S256x64x1.rank)
  bcast_S256x64x1_S256x64x512_0_1_2 : S256x64x1.BroadcastsInDim S256x64x512 (![0, 1, 2] : Fin 3 → Fin S256x64x512.rank)
  transposes_S256x64x256x32_S256x256x32x64_2_0_3_1 : S256x64x256x32.Transposes [2, 0, 3, 1] S256x256x32x64
  reducesTo_S256x256x32x64_S256x256x32_d3 : S256x256x32x64.ReducesTo [3] S256x256x32
  reducesTo_S256x256x32_S256x256_d2 : S256x256x32.ReducesTo [2] S256x256
  dot_S256x512_S512x256_S256x256_1_0_0_1_n_n_wf : DotDims.WF S256x512 S512x256 S256x256 [1] [0] [0] [1] [] []
  dot_S256x64x512_S256x32x512_S256x64x256x32_2_2_01_01_n_n_wf : DotDims.WF S256x64x512 S256x32x512 S256x64x256x32 [2] [2] [0, 1] [0, 1] [] []

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x64x512_S256x32x512_S256x64x256x32_2_2_01_01_n_n : DotDims S256x64x512 S256x32x512 S256x64x256x32 where
  lhsContracting := [2]
  rhsContracting := [2]
  lhsNonContracting := [0, 1]
  rhsNonContracting := [0, 1]
  lhsBatch := []
  rhsBatch := []
  wf := dot_S256x64x512_S256x32x512_S256x64x256x32_2_2_01_01_n_n_wf

class Facts : Prop extends Facts₀ where

variable [Facts]
-- ==== Proof.Spec.lean ====
/-
  The retrieval similarity both programs compute, as ONE function of the five argument arrays over the extended
  reals, index by index. For a text `t` and a clip `v`:

    sim t v = 0.7 · (s · ⟨text t, clip v⟩) + 0.3 · (s · (1/32) Σ_q max_f ⟨framê v f, concept̂ t q⟩)

  where `s = min (exp logit_scale) 100` is the clamped temperature, `x̂ = x / max (‖x‖, 1e-12)` normalises a token's
  512 features by its clamped Euclidean norm, the maximum runs over a clip's 64 frames and the mean over a text's
  32 concept tokens. The constants stay the binary words both programs print: the same word on both sides is never
  evaluated.

  Every definition takes the two leading extents (how many texts, how many clips) as parameters, so that the same
  text reads a whole array (256 of each) and one block of it (128 texts, 8 clips); `sim_congr` says the similarity
  of a pair depends only on that pair's own rows, which is how a block's value is the array's.
-/
import Idealize.ShloMosaic.PureOps.Ideal
import Idealize.ShloMosaic.Lib.ValueIdx

noncomputable section

open scoped BigOperators

namespace Cert.MaxSim

open Idealize.ShloMosaic Idealize.ShloMosaic.ValueIdx

/-- `n` rows of 512 features. -/
abbrev Rows (n : Nat) : Shape := ⟨2, ![n, 512]⟩
/-- `n` items of `k` tokens of 512 features. -/
abbrev Toks (n k : Nat) : Shape := ⟨3, ![n, k, 512]⟩
/-- A square table of similarities. -/
abbrev Table : Shape := ⟨2, ![256, 256]⟩

/-- The clamped temperature `min (exp logit_scale) 100`. -/
def temp (ls : (⟨0, ![]⟩ : Shape).Idx → EReal) : EReal :=
  min (Ideal.exp (ls ix0)) (Ideal.ofBits .f32 0x42C80000#32)

/-- The clamped Euclidean norm of token `b` of item `a`: `max (sqrt (Σ_d x²), 1e-12)`. -/
def norm {n k : Nat} (x : (Toks n k).Idx → EReal) (a : Fin n) (b : Fin k) : EReal :=
  max (Ideal.sqrt (∑ d : Fin 512, x (ix3 a b d) * x (ix3 a b d))) (Ideal.ofBits .f32 0x2B8CBCCC#32)

/-- Feature `d` of the normalised token. -/
def unit {n k : Nat} (x : (Toks n k).Idx → EReal) (a : Fin n) (b : Fin k) (d : Fin 512) : EReal :=
  Ideal.div (x (ix3 a b d)) (norm x a b)

/-- The inner product of frame `f` of clip `v` with concept token `q` of text `t`, both normalised. -/
def score {T V : Nat} (con : (Toks T 32).Idx → EReal) (fr : (Toks V 64).Idx → EReal)
    (t : Fin T) (v : Fin V) (q : Fin 32) (f : Fin 64) : EReal :=
  ∑ d : Fin 512, unit fr v f d * unit con t q d

/-- The best frame for a concept token: the maximum of the scores over the clip's 64 frames, from −∞. -/
def best {T V : Nat} (con : (Toks T 32).Idx → EReal) (fr : (Toks V 64).Idx → EReal)
    (t : Fin T) (v : Fin V) (q : Fin 32) : EReal :=
  (Finset.univ : Finset (Fin 64)).fold max (Ideal.ofBits .f32 0xFF800000#32) (fun f => score con fr t v q f)

/-- The local similarity: the mean over the text's 32 concept tokens of the best frame's score. -/
def localSim {T V : Nat} (con : (Toks T 32).Idx → EReal) (fr : (Toks V 64).Idx → EReal)
    (t : Fin T) (v : Fin V) : EReal :=
  Ideal.div (∑ q : Fin 32, best con fr t v q) (Ideal.ofBits .f32 0x42000000#32)

/-- The global similarity: the inner product of the text's and the clip's embeddings. -/
def globalSim {T V : Nat} (tx : (Rows T).Idx → EReal) (cl : (Rows V).Idx → EReal) (t : Fin T) (v : Fin V) : EReal :=
  ∑ d : Fin 512, tx (ix2 t d) * cl (ix2 v d)

/-- The similarity of text `t` and clip `v` at temperature `s`. -/
def sim {T V : Nat} (s : EReal) (tx : (Rows T).Idx → EReal) (cl : (Rows V).Idx → EReal)
    (con : (Toks T 32).Idx → EReal) (fr : (Toks V 64).Idx → EReal) (t : Fin T) (v : Fin V) : EReal :=
  Ideal.ofBits .f32 0x3F333333#32 * (s * globalSim tx cl t v)
    + Ideal.ofBits .f32 0x3E99999A#32 * (s * localSim con fr t v)

/-- The table of similarities, texts along the rows and clips along the columns. -/
def byText (s : EReal) (tx cl : (Rows 256).Idx → EReal) (con : (Toks 256 32).Idx → EReal)
    (fr : (Toks 256 64).Idx → EReal) : Table.Idx → EReal :=
  fun i => sim s tx cl con fr (i 0 : Fin 256) (i 1 : Fin 256)

/-- The same table transposed: clips along the rows, texts along the columns. -/
def byClip (s : EReal) (tx cl : (Rows 256).Idx → EReal) (con : (Toks 256 32).Idx → EReal)
    (fr : (Toks 256 64).Idx → EReal) : Table.Idx → EReal :=
  fun i => sim s tx cl con fr (i 1 : Fin 256) (i 0 : Fin 256)

theorem byText_ix (s : EReal) (tx cl : (Rows 256).Idx → EReal) (con : (Toks 256 32).Idx → EReal)
    (fr : (Toks 256 64).Idx → EReal) (t v : Fin 256) : byText s tx cl con fr (ix2 t v) = sim s tx cl con fr t v := rfl

theorem byClip_ix (s : EReal) (tx cl : (Rows 256).Idx → EReal) (con : (Toks 256 32).Idx → EReal)
    (fr : (Toks 256 64).Idx → EReal) (v t : Fin 256) : byClip s tx cl con fr (ix2 v t) = sim s tx cl con fr t v := rfl

/-- The similarity of a pair reads only the pair's own rows: two families of arrays that agree on the rows of
    `(t', v')` and `(t, v)` give the same similarity there. -/
theorem sim_congr {T V T' V' : Nat} (s : EReal)
    (tx : (Rows T).Idx → EReal) (cl : (Rows V).Idx → EReal) (con : (Toks T 32).Idx → EReal) (fr : (Toks V 64).Idx → EReal)
    (tx' : (Rows T').Idx → EReal) (cl' : (Rows V').Idx → EReal) (con' : (Toks T' 32).Idx → EReal) (fr' : (Toks V' 64).Idx → EReal)
    (t : Fin T) (v : Fin V) (t' : Fin T') (v' : Fin V')
    (h0 : ∀ d, tx' (ix2 t' d) = tx (ix2 t d)) (h1 : ∀ d, cl' (ix2 v' d) = cl (ix2 v d))
    (h2 : ∀ q d, con' (ix3 t' q d) = con (ix3 t q d)) (h3 : ∀ f d, fr' (ix3 v' f d) = fr (ix3 v f d)) :
    sim s tx' cl' con' fr' t' v' = sim s tx cl con fr t v := by
  unfold sim globalSim localSim best score unit norm
  simp only [h0, h1, h2, h3]

end Cert.MaxSim

end
-- ==== Proof.Rows.lean ====
/-
  How the kernel's body spells the pieces of the similarity, read at an index over the extended reals — stated over
  plain vectors of the body's literal shapes, with no program in sight.

  A token is normalised as `x / broadcast (max (sqrt (keepdims (Σ_d x²)), 1e-12))`: the sum over the 512 features
  read as a finite sum, the keepdims cast `[n, k] → [n, k, 1]` and the broadcast `[n, k, 1] → [n, k, 512]` read at
  coordinates (`unit_apply`). Before the matrix product, items × tokens are merged into one axis of rows (row
  `a·k + b` is token `b` of item `a`: `merge3`); after it the rows are split back (`split3`), the maximum is taken
  over a clip's 64 frames from −∞ (`maxFrames`), the 4096 columns are split into 128 texts × 32 concept tokens
  (column `t·32 + q`: `splitCols`), and the tokens are summed (`sumTokens`).
-/
import proofs.«161504_j36447092474557_1_alg».proof.Proof.Spec
import Idealize.ShloMosaic.Lib.Pipeline.Value
import Idealize.ShloMosaic.Lib.ValueIdx
import Idealize.ShloMosaic.PureOps.Ideal.Laws

noncomputable section
open scoped BigOperators
namespace Cert.MaxSim.Rows
open Idealize.ShloMosaic Idealize.ShloMosaic.ValueIdx

/-- The index of token `(a, b)` with feature `d` put back on the summed axis. -/
theorem lift3 {n k : Nat} (hR : (⟨3, ![n, k, 512]⟩ : Shape).Reduces [2] ⟨2, ![n, k]⟩) (a : Fin n) (b : Fin k)
    (d : Fin ((⟨3, ![n, k, 512]⟩ : Shape).size 2)) : hR.lift (ix2 a b) d = ix3 a b (⟨d.val, d.isLt⟩ : Fin 512) := by
  funext c; apply Fin.ext
  fin_cases c <;> rfl

/-- The sum of a token's squared features. -/
theorem sumSq {n k : Nat} (x : FVec Ideal ⟨3, ![n, k, 512]⟩ .f32)
    (hR : (⟨3, ![n, k, 512]⟩ : Shape).Reduces [2] ⟨2, ![n, k]⟩)
    (hφ : FKind.Formats .f32) (hacc : (0x00000000#32 : BitVec 32) = FKind.add.neutral .f32 hφ) (a : Fin n) (b : Fin k) :
    multiReduction .add [2] ⟨2, ![n, k]⟩ (mulf x x) 0x00000000#32 hR hφ hacc (ix2 a b)
      = ∑ d : Fin 512, x (ix3 a b d) * x (ix3 a b d) := by
  refine (Ideal.multiReduction_add_single (mulf x x) 0x00000000#32 hR hφ hacc (ix2 a b)).trans ?_
  refine Finset.sum_congr rfl fun d _ => ?_
  rw [lift3 hR a b d]
  rfl

/-- The keepdims cast: the one entry of the unit axis is the entry of the pair. -/
theorem keep3 {n k : Nat} {α : Type} (y : (⟨2, ![n, k]⟩ : Shape).Idx → α)
    (hC : (⟨2, ![n, k]⟩ : Shape).ShapeCasts ⟨3, ![n, k, 1]⟩) (a : Fin n) (b : Fin k) (u : Fin 1) :
    shapeCast ⟨3, ![n, k, 1]⟩ y hC (ix3 a b u) = y (ix2 a b) :=
  shapeCast_apply y hC _ _ (by
    have hu : u.val = 0 := by omega
    rw [Shape.rowMajor_val_three, Shape.rowMajor_val_two]
    show a.val * k + b.val = (a.val * k + b.val) * 1 + u.val
    omega)

/-- A value per token spread over the token's 512 features. -/
theorem spread3 {n k : Nat} {α : Type} (y : (⟨3, ![n, k, 1]⟩ : Shape).Idx → α)
    (hB : (⟨3, ![n, k, 1]⟩ : Shape).Broadcasts ⟨3, ![n, k, 512]⟩) (a : Fin n) (b : Fin k) (d : Fin 512) :
    broadcastTo ⟨3, ![n, k, 512]⟩ y hB (ix3 a b d) = y (ix3 a b (0 : Fin 1)) := by
  refine broadcastTo_apply y hB (ix3 a b d) (ix3 a b (0 : Fin 1)) fun ax => ?_
  match ax with
  | ⟨0, _⟩ =>
    show a.val = if n = 1 then 0 else a.val
    split
    · have := a.isLt; omega
    · rfl
  | ⟨1, _⟩ =>
    show b.val = if k = 1 then 0 else b.val
    split
    · have := b.isLt; omega
    · rfl
  | ⟨2, _⟩ => rfl

/-- A token divided by its clamped norm, as the kernel's body spells it, read at a feature. -/
theorem unit_apply {n k : Nat} (x : FVec Ideal ⟨3, ![n, k, 512]⟩ .f32)
    (hR : (⟨3, ![n, k, 512]⟩ : Shape).Reduces [2] ⟨2, ![n, k]⟩)
    (hφ : FKind.Formats .f32) (hacc : (0x00000000#32 : BitVec 32) = FKind.add.neutral .f32 hφ)
    (hC : (⟨2, ![n, k]⟩ : Shape).ShapeCasts ⟨3, ![n, k, 1]⟩)
    (hB : (⟨3, ![n, k, 1]⟩ : Shape).Broadcasts ⟨3, ![n, k, 512]⟩) (a : Fin n) (b : Fin k) (d : Fin 512) :
    divf x (broadcastTo ⟨3, ![n, k, 512]⟩
        (maximumf (sqrt (shapeCast ⟨3, ![n, k, 1]⟩ (multiReduction .add [2] ⟨2, ![n, k]⟩ (mulf x x) 0x00000000#32 hR hφ hacc) hC))
          (broadcast ⟨3, ![n, k, 1]⟩ (Scalar.ofBits (F := Ideal) .f32 0x2B8CBCCC#32))) hB) (ix3 a b d)
      = Cert.MaxSim.unit x a b d := by
  rw [divf_apply, spread3, maximumf_apply]
  unfold Cert.MaxSim.unit Cert.MaxSim.norm
  refine congrArg (Ideal.div (x (ix3 a b d))) ?_
  refine congrArg₂ max ?_ rfl
  show Ideal.sqrt (shapeCast _ _ hC (ix3 a b (0 : Fin 1))) = _
  rw [keep3, sumSq]

/-- Items × tokens merged into one axis of rows: row `a·k + b` is token `b` of item `a`. -/
theorem merge3 {n k N : Nat} {α : Type} (y : (⟨3, ![n, k, 512]⟩ : Shape).Idx → α)
    (hC : (⟨3, ![n, k, 512]⟩ : Shape).ShapeCasts ⟨2, ![N, 512]⟩) (a : Fin n) (b : Fin k) (d : Fin 512) (r : Fin N)
    (hr : r.val = a.val * k + b.val) :
    shapeCast ⟨2, ![N, 512]⟩ y hC (ix2 r d) = y (ix3 a b d) :=
  shapeCast_apply y hC _ _ (by
    rw [Shape.rowMajor_val_three, Shape.rowMajor_val_two]
    show (a.val * k + b.val) * 512 + d.val = r.val * 512 + d.val
    rw [hr])

/-- Rows split back into items × tokens, the columns kept. -/
theorem split3 {n k N C : Nat} {α : Type} (y : (⟨2, ![N, C]⟩ : Shape).Idx → α)
    (hC : (⟨2, ![N, C]⟩ : Shape).ShapeCasts ⟨3, ![n, k, C]⟩) (a : Fin n) (b : Fin k) (c : Fin C) (r : Fin N)
    (hr : r.val = a.val * k + b.val) :
    shapeCast ⟨3, ![n, k, C]⟩ y hC (ix3 a b c) = y (ix2 r c) :=
  shapeCast_apply y hC _ _ (by
    rw [Shape.rowMajor_val_three, Shape.rowMajor_val_two]
    show r.val * C + c.val = (a.val * k + b.val) * C + c.val
    rw [hr])

/-- Columns split into texts × concept tokens: column `t·32 + q` is token `q` of text `t`. -/
theorem splitCols {α : Type} (y : (⟨2, ![8, 4096]⟩ : Shape).Idx → α)
    (hC : (⟨2, ![8, 4096]⟩ : Shape).ShapeCasts ⟨3, ![8, 128, 32]⟩) (v : Fin 8) (t : Fin 128) (q : Fin 32) (c : Fin 4096)
    (hc : c.val = t.val * 32 + q.val) :
    shapeCast ⟨3, ![8, 128, 32]⟩ y hC (ix3 v t q) = y (ix2 v c) :=
  shapeCast_apply y hC _ _ (by
    rw [Shape.rowMajor_val_three, Shape.rowMajor_val_two]
    show v.val * 4096 + c.val = (v.val * 128 + t.val) * 32 + q.val
    omega)

/-- The index `(v, c)` with frame `f` put back on the maximised axis. -/
theorem liftMid (hR : (⟨3, ![8, 64, 4096]⟩ : Shape).Reduces [1] ⟨2, ![8, 4096]⟩) (v : Fin 8) (c : Fin 4096)
    (f : Fin ((⟨3, ![8, 64, 4096]⟩ : Shape).size 1)) : hR.lift (ix2 v c) f = ix3 v (⟨f.val, f.isLt⟩ : Fin 64) c := by
  funext a; apply Fin.ext
  fin_cases a <;> rfl

/-- The maximum over a clip's frames, from −∞. -/
theorem maxFrames (x : FVec Ideal ⟨3, ![8, 64, 4096]⟩ .f32)
    (hR : (⟨3, ![8, 64, 4096]⟩ : Shape).Reduces [1] ⟨2, ![8, 4096]⟩)
    (hφ : FKind.Formats .f32) (hacc : (0xFF800000#32 : BitVec 32) = FKind.maximumf.neutral .f32 hφ) (v : Fin 8) (c : Fin 4096) :
    multiReduction .maximumf [1] ⟨2, ![8, 4096]⟩ x 0xFF800000#32 hR hφ hacc (ix2 v c)
      = (Finset.univ : Finset (Fin 64)).fold max (Ideal.ofBits .f32 0xFF800000#32) (fun f => x (ix3 v f c)) := by
  refine (Ideal.multiReduction_maximumf_single x 0xFF800000#32 hR hφ hacc (ix2 v c)).trans ?_
  refine congrArg (fun g => Finset.fold max (Ideal.ofBits .f32 0xFF800000#32) g (Finset.univ : Finset (Fin 64))) ?_
  funext f
  show x (hR.lift (ix2 v c) f) = _
  rw [liftMid hR v c f]
  rfl

/-- The index `(v, t)` with token `q` put back on the summed axis. -/
theorem liftLast (hR : (⟨3, ![8, 128, 32]⟩ : Shape).Reduces [2] ⟨2, ![8, 128]⟩) (v : Fin 8) (t : Fin 128)
    (q : Fin ((⟨3, ![8, 128, 32]⟩ : Shape).size 2)) : hR.lift (ix2 v t) q = ix3 v t (⟨q.val, q.isLt⟩ : Fin 32) := by
  funext a; apply Fin.ext
  fin_cases a <;> rfl

/-- The sum over a text's concept tokens. -/
theorem sumTokens (x : FVec Ideal ⟨3, ![8, 128, 32]⟩ .f32)
    (hR : (⟨3, ![8, 128, 32]⟩ : Shape).Reduces [2] ⟨2, ![8, 128]⟩)
    (hφ : FKind.Formats .f32) (hacc : (0x00000000#32 : BitVec 32) = FKind.add.neutral .f32 hφ) (v : Fin 8) (t : Fin 128) :
    multiReduction .add [2] ⟨2, ![8, 128]⟩ x 0x00000000#32 hR hφ hacc (ix2 v t) = ∑ q : Fin 32, x (ix3 v t q) := by
  refine (Ideal.multiReduction_add_single x 0x00000000#32 hR hφ hacc (ix2 v t)).trans ?_
  refine Finset.sum_congr rfl fun q _ => ?_
  rw [liftLast hR v t q]
  rfl

end Cert.MaxSim.Rows
end
-- ==== Proof.Body.lean ====
/-
  What the kernel's body stores, read at one entry of its [8, 128] output block (clip `v` of the block's 8,
  text `t` of its 128), over the extended reals.

  The body forms the clips' embeddings times the transposed texts' embeddings (a matrix product into a zero
  accumulator: entry `(v, t)` is the inner product of the two rows, `dots_apply`) times the temperature; normalises
  the concept tokens and the frames, merges items × tokens into rows, multiplies the 512 frame rows by the transposed
  4096 concept rows (`scores_apply`), splits the rows back into clips × frames and takes the maximum over the frames,
  splits the columns into texts × tokens and sums over the tokens (`pay4_apply`), divides by 32, scales, and adds
  the two parts with weights 0.7 and 0.3. The roundings to the narrower float format on the way into the second
  product are the identity on the extended reals. Entry `(v, t)` is therefore the similarity of text `t` and clip
  `v` of the blocks (`stored_apply`), up to the order of three products.
-/
import proofs.«161504_j36447092474557_1_alg».proof.Proof.Gen.KernelIdeal.Skeleton
import proofs.«161504_j36447092474557_1_alg».proof.Proof.Spec
import proofs.«161504_j36447092474557_1_alg».proof.Proof.Rows
import Idealize.ShloMosaic.PureOps.Ideal.Laws
import Idealize.ShloMosaic.Lib.ValueIdx
import Idealize.ShloMosaic.Lib.ValueLayout

noncomputable section
open scoped BigOperators
namespace Cert.KernelIdeal.Body
open Idealize.ShloMosaic Idealize.ShloMosaic.ValueIdx Cert.KernelIdeal Cert.KernelIdeal.Gen Cert.MaxSim

/-- The dimension numbers of the product of the normalised frames with the normalised concept tokens. -/
abbrev DS : DotDims S512x512 S512x4096 S512x4096 := dot_S512x512_S512x4096_S512x4096_1_0_0_1_n_n

/-- The operand indices of the product at output index `i` and contraction index `q`, coordinate by coordinate. -/
theorem lhsS0 (i : S512x4096.Idx) (q : DS.contr.Idx) : (DS.lhsIdx i q 0).val = (i 0).val := by
  unfold DotDims.lhsIdx
  rw [dif_neg (show ¬(0 : Fin S512x512.rank) ∈ DS.lhsBatch by decide), dif_pos (show (0 : Fin S512x512.rank) ∈ DS.lhsNonContracting by decide)]
  rfl
theorem lhsS1 (i : S512x4096.Idx) (q : DS.contr.Idx) : (DS.lhsIdx i q 1).val = (q ⟨0, by decide⟩).val :=
  DS.lhsIdx_val_of_single rfl i q
theorem rhsS0 (i : S512x4096.Idx) (q : DS.contr.Idx) : (DS.rhsIdx i q 0).val = (q ⟨0, by decide⟩).val :=
  DS.rhsIdx_val_of_single rfl i q
theorem rhsS1 (i : S512x4096.Idx) (q : DS.contr.Idx) : (DS.rhsIdx i q 1).val = (i 1).val := by
  unfold DotDims.rhsIdx
  rw [dif_neg (show ¬(1 : Fin S512x4096.rank) ∈ DS.rhsBatch by decide), dif_pos (show (1 : Fin S512x4096.rank) ∈ DS.rhsNonContracting by decide)]
  rfl

/-- Rows times columns into a zero accumulator: entry `(i, c)` is the inner product of row `i` with column `c`. -/
theorem scores_apply (l : FVec Ideal S512x512 .bf16) (r : FVec Ideal S512x4096 .bf16) (i : Fin 512) (c : Fin 4096) :
    matmul DS none l r (constant (F := Ideal) S512x4096 .f32 0x00000000#32) (ix2 i c) = ∑ d : Fin 512, l (ix2 i d) * r (ix2 d c) := by
  refine (Ideal.matmul_constant_zero_apply DS none l r (ix2 i c)).trans ?_
  rw [← Equiv.sum_comp (contrEquiv1 DS 512 rfl rfl).symm]
  refine Finset.sum_congr rfl fun k _ => ?_
  have hk := contrEquiv1_symm_val DS 512 rfl rfl k
  have el : DS.lhsIdx (ix2 i c) ((contrEquiv1 DS 512 rfl rfl).symm k) = ix2 i k := funext fun a => Fin.ext (by
    match a with
    | ⟨0, _⟩ => exact lhsS0 _ _
    | ⟨1, _⟩ => exact (lhsS1 _ _).trans hk)
  have er : DS.rhsIdx (ix2 i c) ((contrEquiv1 DS 512 rfl rfl).symm k) = ix2 k c := funext fun a => Fin.ext (by
    match a with
    | ⟨0, _⟩ => exact (rhsS0 _ _).trans hk
    | ⟨1, _⟩ => exact rhsS1 _ _)
  rw [el, er]

/-- The body's local-similarity payload, before the division by 32: at clip `v` and text `t` of the blocks, the sum
    over the text's concept tokens of the best frame's score. -/
theorem pay4_apply (v8 : Vec Ideal S128x32x512 .f32) (v9 : Vec Ideal S8x64x512 .f32) (v : Fin 8) (t : Fin 128) :
    k0_pay4 (F := Ideal) v8 v9 (ix2 v t) = ∑ q : Fin 32, best v8 v9 t v q := by
  unfold k0_pay4
  refine (Rows.sumTokens _ _ _ _ v t).trans ?_
  refine Finset.sum_congr rfl fun q _ => ?_
  refine (Rows.splitCols _ _ v t q ⟨t.val * 32 + q.val, by omega⟩ rfl).trans ?_
  refine (Rows.maxFrames _ _ _ _ v _).trans ?_
  unfold best
  refine congrArg (fun g => Finset.fold max (Ideal.ofBits .f32 0xFF800000#32) g (Finset.univ : Finset (Fin 64))) (funext fun f => ?_)
  refine (Rows.split3 _ _ v f _ ⟨v.val * 64 + f.val, by omega⟩ rfl).trans ?_
  refine (scores_apply _ _ _ _).trans ?_
  unfold score
  refine Finset.sum_congr rfl fun d _ => ?_
  refine congrArg₂ (· * ·) ?_ ?_
  · refine (Rows.merge3 _ _ v f d _ rfl).trans ?_
    exact Rows.unit_apply v9 _ _ _ _ _ v f d
  · refine (transpose_ix2_apply _ _ d _).trans ?_
    refine (Rows.merge3 _ _ t q d _ rfl).trans ?_
    exact Rows.unit_apply v8 _ _ _ _ _ t q d

/-- The dimension numbers of the product of the clips' embeddings with the texts' embeddings, transposed. -/
abbrev DG : DotDims S8x512 S512x128 S8x128 := dot_S8x512_S512x128_S8x128_1_0_0_1_n_n

theorem lhsG0 (i : S8x128.Idx) (q : DG.contr.Idx) : (DG.lhsIdx i q 0).val = (i 0).val := by
  unfold DotDims.lhsIdx
  rw [dif_neg (show ¬(0 : Fin S8x512.rank) ∈ DG.lhsBatch by decide), dif_pos (show (0 : Fin S8x512.rank) ∈ DG.lhsNonContracting by decide)]
  rfl
theorem lhsG1 (i : S8x128.Idx) (q : DG.contr.Idx) : (DG.lhsIdx i q 1).val = (q ⟨0, by decide⟩).val :=
  DG.lhsIdx_val_of_single rfl i q
theorem rhsG0 (i : S8x128.Idx) (q : DG.contr.Idx) : (DG.rhsIdx i q 0).val = (q ⟨0, by decide⟩).val :=
  DG.rhsIdx_val_of_single rfl i q
theorem rhsG1 (i : S8x128.Idx) (q : DG.contr.Idx) : (DG.rhsIdx i q 1).val = (i 1).val := by
  unfold DotDims.rhsIdx
  rw [dif_neg (show ¬(1 : Fin S512x128.rank) ∈ DG.rhsBatch by decide), dif_pos (show (1 : Fin S512x128.rank) ∈ DG.rhsNonContracting by decide)]
  rfl

/-- Clips times transposed texts into a zero accumulator: entry `(v, t)` is the inner product of the two rows. -/
theorem dots_apply (l : FVec Ideal S8x512 .f32) (r : FVec Ideal S512x128 .f32) (v : Fin 8) (t : Fin 128) :
    matmul DG none l r (constant (F := Ideal) S8x128 .f32 0x00000000#32) (ix2 v t) = ∑ d : Fin 512, l (ix2 v d) * r (ix2 d t) := by
  refine (Ideal.matmul_constant_zero_apply DG none l r (ix2 v t)).trans ?_
  rw [← Equiv.sum_comp (contrEquiv1 DG 512 rfl rfl).symm]
  refine Finset.sum_congr rfl fun k _ => ?_
  have hk := contrEquiv1_symm_val DG 512 rfl rfl k
  have el : DG.lhsIdx (ix2 v t) ((contrEquiv1 DG 512 rfl rfl).symm k) = ix2 v k := funext fun a => Fin.ext (by
    match a with
    | ⟨0, _⟩ => exact lhsG0 _ _
    | ⟨1, _⟩ => exact (lhsG1 _ _).trans hk)
  have er : DG.rhsIdx (ix2 v t) ((contrEquiv1 DG 512 rfl rfl).symm k) = ix2 k t := funext fun a => Fin.ext (by
    match a with
    | ⟨0, _⟩ => exact (rhsG0 _ _).trans hk
    | ⟨1, _⟩ => exact rhsG1 _ _)
  rw [el, er]

/-- The temperature the body reads: the one entry of its [1, 1] block. -/
theorem pay2_apply (v0 : Vec Ideal S1x1 .f32) : k0_pay2 (F := Ideal) v0 = v0 (ix2 (0 : Fin 1) (0 : Fin 1)) := by
  unfold k0_pay2 extractAt
  refine congrArg v0 (funext fun a => ?_)
  match a with
  | ⟨0, _⟩ => rfl
  | ⟨1, _⟩ => rfl

/-- The body's global-similarity payload: the clip's row against the text's row, times the temperature. -/
theorem pay3_apply (v0 : Vec Ideal S1x1 .f32) (v2 : Vec Ideal S128x512 .f32) (v3 : Vec Ideal S8x512 .f32) (v : Fin 8) (t : Fin 128) :
    k0_pay3 (F := Ideal) v0 v2 v3 (ix2 v t) = (∑ d : Fin 512, v3 (ix2 v d) * v2 (ix2 t d)) * v0 (ix2 (0 : Fin 1) (0 : Fin 1)) := by
  unfold k0_pay3
  rw [mulf_apply, broadcast_apply, pay2_apply]
  refine congrArg (· * v0 (ix2 (0 : Fin 1) (0 : Fin 1))) ?_
  refine (dots_apply _ _ v t).trans ?_
  refine Finset.sum_congr rfl fun d _ => ?_
  refine congrArg (v3 (ix2 v d) * ·) ?_
  exact transpose_ix2_apply _ _ d t

/-- What the body stores at clip `v` and text `t` of its block: the similarity of that pair, computed from the
    blocks alone, at the temperature its [1, 1] block holds. The two sides differ only by the order of three
    products, and multiplication of extended reals commutes. -/
theorem stored_apply (x0 : Vec Ideal S1x1 .f32) (x1 : Vec Ideal S128x512 .f32) (x2 : Vec Ideal S8x512 .f32)
    (x3 : Vec Ideal S128x32x512 .f32) (x4 : Vec Ideal S8x64x512 .f32) (v : Fin 8) (t : Fin 128) :
    k0_pay1 (k0_pay2 x0) (k0_pay3 x0 x1 x2) (k0_pay4 x3 x4) (k0_pay5 (F := Ideal)) (ix2 v t)
      = sim (x0 (ix2 (0 : Fin 1) (0 : Fin 1))) x1 x2 x3 x4 t v := by
  have h1 : ∀ (a : Ideal .f32) (b c e : FVec Ideal S8x128 .f32), k0_pay1 a b c e (ix2 v t)
      = Ideal.ofBits .f32 0x3F333333#32 * b (ix2 v t) + Ideal.ofBits .f32 0x3E99999A#32 * (Ideal.div (c (ix2 v t)) (e (ix2 v t)) * a) :=
    fun _ _ _ _ => rfl
  rw [h1, pay3_apply, pay4_apply, pay2_apply]
  unfold sim localSim globalSim
  refine congrArg₂ (· + ·) (congrArg _ ?_) (congrArg _ ?_)
  · rw [mul_comm]
    refine congrArg _ (Finset.sum_congr rfl fun d _ => mul_comm _ _)
  · rw [mul_comm]
    rfl

end Cert.KernelIdeal.Body
end
-- ==== Proof.Table.lean ====
/-
  From blocks to the array: what the region leaves in its [256, 256] result.

  The grid is 2 × 32: point (col, row) stages the texts' and concept tokens' block `col` (128 texts), the clips' and
  frames' block `row` (8 clips) and the one-entry temperature, and writes back output block `(row, col)`, 8 clips by
  128 texts. The similarity of a pair reads only the pair's own rows, so the value the body stores at entry `(v, t)`
  of its block — the similarity computed from the blocks — is the similarity of clip `8·row + v` and text
  `128·col + t` computed from the whole arrays (`block_eq`): what a point writes back is its block of ONE table
  (`flushed_eq`). The 32 × 2 output blocks tile the table (`cover`), so the array ends holding the table, clips
  along the rows (`final`). The temperature the region finds is a hypothesis here; the host side supplies it.
-/
import proofs.«161504_j36447092474557_1_alg».proof.Proof.Gen.KernelIdeal.Frame
import proofs.«161504_j36447092474557_1_alg».proof.Proof.Spec
import proofs.«161504_j36447092474557_1_alg».proof.Proof.Body
import Idealize.ShloMosaic.Lib.Pipeline.Value
import Idealize.ShloMosaic.Lib.ValueIdx

set_option maxRecDepth 16384
noncomputable section
open scoped BigOperators
namespace Cert.KernelIdeal.Table
open Idealize.ShloMosaic Idealize.ShloMosaic.TcCoe Idealize.SL.Sem Idealize.ShloMosaic.ValueIdx
open Idealize.ShloMosaic.Pipeline (Dat)
open Cert.KernelIdeal Cert.KernelIdeal.Gen Cert.MaxSim

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided once over the 2 × 32 grid: the temperature's block never moves; the texts'
    and the concept tokens' blocks follow the output block's column, the clips' and the frames' blocks its row,
    all at feature offset zero; the output's block indices stay in their ranges. -/
theorem idx_facts : ∀ t : Fin cfg0.N,
    win0_0.index t (0 : Fin 2) = 0 ∧ win0_0.index t (1 : Fin 2) = 0
    ∧ win0_1.index t (0 : Fin 2) = win0_5.index t (1 : Fin 2) ∧ win0_1.index t (1 : Fin 2) = 0
    ∧ win0_2.index t (0 : Fin 2) = win0_5.index t (0 : Fin 2) ∧ win0_2.index t (1 : Fin 2) = 0
    ∧ win0_3.index t (0 : Fin 3) = win0_5.index t (1 : Fin 2) ∧ win0_3.index t (1 : Fin 3) = 0 ∧ win0_3.index t (2 : Fin 3) = 0
    ∧ win0_4.index t (0 : Fin 3) = win0_5.index t (0 : Fin 2) ∧ win0_4.index t (1 : Fin 3) = 0 ∧ win0_4.index t (2 : Fin 3) = 0
    ∧ win0_5.index t (0 : Fin 2) ≤ 31 ∧ win0_5.index t (1 : Fin 2) ≤ 1 :=
  (by decide +kernel : ∀ t : Fin grid0.N, _)

/-- Every block of the table is some point's. -/
theorem idx_onto : ∀ (q0 : Fin 32) (q1 : Fin 2), ∃ t : Fin cfg0.N, win0_5.index t = ![q0.val, q1.val] :=
  (by decide +kernel : ∀ (q0 : Fin 32) (q1 : Fin 2), ∃ t : Fin grid0.N, win0_5.index t = ![q0.val, q1.val])

/-- The table the region leaves, clips along the rows: `byClip` of the arguments as launched. -/
abbrev table (c : Dev nD) : Table.Idx → EReal :=
  byClip (temp (m ((c : Thread nD τ).loc main_arg4))) (m ((c : Thread nD τ).loc main_arg0)) (m ((c : Thread nD τ).loc main_arg1))
    (m ((c : Thread nD τ).loc main_arg2)) (m ((c : Thread nD τ).loc main_arg3))

/-- The stored value at a general entry of the block. -/
theorem stored_at (x0 : Vec Ideal S1x1 .f32) (x1 : Vec Ideal S128x512 .f32) (x2 : Vec Ideal S8x512 .f32)
    (x3 : Vec Ideal S128x32x512 .f32) (x4 : Vec Ideal S8x64x512 .f32) (j : S8x128.Idx) :
    k0_pay1 (k0_pay2 x0) (k0_pay3 x0 x1 x2) (k0_pay4 x3 x4) (k0_pay5 (F := Ideal)) j
      = sim (x0 (ix2 (0 : Fin 1) (0 : Fin 1))) x1 x2 x3 x4 (j 1 : Fin 128) (j 0 : Fin 8) := by
  obtain ⟨v, t, rfl⟩ : ∃ (v : Fin 8) (t : Fin 128), j = ix2 v t := ⟨j 0, j 1, eq_ix2 j⟩
  exact Body.stored_apply x0 x1 x2 x3 x4 v t

/-- The similarity computed from point `p`'s blocks, at clip `v` and text `t` of the blocks, is the similarity of
    clip `8·row + v` and text `128·col + t` of the whole arrays, `(row, col)` the point's output block. -/
theorem block_eq (c : Dev nD) (p : Fin cfg0.N)
    (hs : (V m c main_v2 : S1x1.Idx → EReal) = fun _ => temp (m ((c : Thread nD τ).loc main_arg4)))
    (v : Fin 8) (t : Fin 128) (vv tt : Fin 256)
    (hv : vv.val = win0_5.index p (0 : Fin 2) * 8 + 1 * v.val) (ht : tt.val = win0_5.index p (1 : Fin 2) * 128 + 1 * t.val) :
    sim (iblk m c 0 p (ix2 (0 : Fin 1) (0 : Fin 1))) (iblk m c 1 p) (iblk m c 2 p) (iblk m c 3 p) (iblk m c 4 p) t v
      = sim (temp (m ((c : Thread nD τ).loc main_arg4))) (m ((c : Thread nD τ).loc main_arg0)) (m ((c : Thread nD τ).loc main_arg1))
          (m ((c : Thread nD τ).loc main_arg2)) (m ((c : Thread nD τ).loc main_arg3)) tt vv := by
  obtain ⟨e00, e01, e10, e11, e20, e21, e30, e31, e32, e40, e41, e42, -, -⟩ := idx_facts p
  have h0 : iblk m c 0 p (ix2 (0 : Fin 1) (0 : Fin 1)) = temp (m ((c : Thread nD τ).loc main_arg4)) := by
    show V m c main_v2 (((cfg0.win 0).blk p).view.emb (ix2 (0 : Fin 1) (0 : Fin 1))) = _
    rw [hs]
  rw [h0]
  refine sim_congr _ _ _ _ _ _ _ _ _ tt vv t v ?_ ?_ ?_ ?_
  · intro d
    show V m c main_arg0 (((cfg0.win 1).blk p).view.emb (ix2 t d)) = m ((c : Thread nD τ).loc main_arg0) (ix2 tt d)
    rw [V_main_arg0]
    refine congrArg _ (funext fun a => Fin.ext ?_)
    match a with
    | ⟨0, _⟩ => show win0_1.index p (0 : Fin 2) * 128 + 1 * t.val = tt.val; rw [e10, ht]
    | ⟨1, _⟩ => show win0_1.index p (1 : Fin 2) * 512 + 1 * d.val = d.val; rw [e11]; omega
  · intro d
    show V m c main_arg1 (((cfg0.win 2).blk p).view.emb (ix2 v d)) = m ((c : Thread nD τ).loc main_arg1) (ix2 vv d)
    rw [V_main_arg1]
    refine congrArg _ (funext fun a => Fin.ext ?_)
    match a with
    | ⟨0, _⟩ => show win0_2.index p (0 : Fin 2) * 8 + 1 * v.val = vv.val; rw [e20, hv]
    | ⟨1, _⟩ => show win0_2.index p (1 : Fin 2) * 512 + 1 * d.val = d.val; rw [e21]; omega
  · intro q d
    show V m c main_arg2 (((cfg0.win 3).blk p).view.emb (ix3 t q d)) = m ((c : Thread nD τ).loc main_arg2) (ix3 tt q d)
    rw [V_main_arg2]
    refine congrArg _ (funext fun a => Fin.ext ?_)
    match a with
    | ⟨0, _⟩ => show win0_3.index p (0 : Fin 3) * 128 + 1 * t.val = tt.val; rw [e30, ht]
    | ⟨1, _⟩ => show win0_3.index p (1 : Fin 3) * 32 + 1 * q.val = q.val; rw [e31]; omega
    | ⟨2, _⟩ => show win0_3.index p (2 : Fin 3) * 512 + 1 * d.val = d.val; rw [e32]; omega
  · intro f d
    show V m c main_arg3 (((cfg0.win 4).blk p).view.emb (ix3 v f d)) = m ((c : Thread nD τ).loc main_arg3) (ix3 vv f d)
    rw [V_main_arg3]
    refine congrArg _ (funext fun a => Fin.ext ?_)
    match a with
    | ⟨0, _⟩ => show win0_4.index p (0 : Fin 3) * 8 + 1 * v.val = vv.val; rw [e40, hv]
    | ⟨1, _⟩ => show win0_4.index p (1 : Fin 3) * 64 + 1 * f.val = f.val; rw [e41]; omega
    | ⟨2, _⟩ => show win0_4.index p (2 : Fin 3) * 512 + 1 * d.val = d.val; rw [e42]; omega

/-- WHAT POINT `p` WRITES BACK is block `p` of the table. -/
theorem flushed_eq (c : Dev nD)
    (hs : (V m c main_v2 : S1x1.Idx → EReal) = fun _ => temp (m ((c : Thread nD τ).loc main_arg4))) (p : Fin cfg0.N) :
    (dats m 0 c).flushed 5 p = ((cfg0.win 5).blk p).view.read (Elt Ideal) (table m c) := by
  show (cfg0.win 5).cut (grid0.coords p) ((dats m 0 c).after 5 p) = _
  rw [after0_5]
  unfold out0_5
  rw [View.canon_unit_zero hz2]
  simp only [View.ld_unit_zero (S := S1x1) hz2, View.ld_unit_zero (S := S128x512) hz2, View.ld_unit_zero (S := S8x512) hz2,
    View.ld_unit_zero (S := S128x32x512) hz3, View.ld_unit_zero (S := S8x64x512) hz3]
  funext j
  show k0_pay1 (k0_pay2 (iblk m c 0 p)) (k0_pay3 (iblk m c 0 p) (iblk m c 1 p) (iblk m c 2 p)) (k0_pay4 (iblk m c 3 p) (iblk m c 4 p))
      (k0_pay5 (F := Ideal)) j = table m c (((cfg0.win 5).blk p).view.emb j)
  refine (stored_at (iblk m c 0 p) (iblk m c 1 p) (iblk m c 2 p) (iblk m c 3 p) (iblk m c 4 p) j).trans ?_
  exact block_eq m c p hs (j 0) (j 1) _ _ rfl rfl

/-- An index of the table is in point `p`'s block iff each coordinate is in the block's range on its axis. -/
theorem mem_blk (p : Fin cfg0.N) (i : S256x256.Idx) :
    i ∈ ((cfg0.win 5).blk p).view.set ↔ ∀ a : Fin 2, win0_5.index p a * S8x128.size a ≤ (i a).val ∧ (i a).val < win0_5.index p a * S8x128.size a + S8x128.size a := by
  show i ∈ ((View.whole main_v3).slice (win0_5.rect p)).set ↔ _
  rw [View.set_slice_whole, Rect.mem_set_unit]
  exact Iff.rfl

/-- The 32 × 2 output blocks tile the table: entry `(r, s)` lies in the block of the point whose output block is
    `(r / 8, s / 128)`. -/
theorem cover (i : S256x256.Idx) : ∃ p : Fin cfg0.N, (cfg0.win 5).flush p = true ∧ i ∈ ((cfg0.win 5).blk p).view.set := by
  have hi0 : (i 0).val < 256 := (i 0).isLt
  have hi1 : (i 1).val < 256 := (i 1).isLt
  obtain ⟨p, hp⟩ := idx_onto ⟨(i 0).val / 8, by omega⟩ ⟨(i 1).val / 128, by omega⟩
  have q0 : win0_5.index p (0 : Fin 2) = (i 0).val / 8 := congrFun hp 0
  have q1 : win0_5.index p (1 : Fin 2) = (i 1).val / 128 := congrFun hp 1
  refine ⟨p, flush0_5 p, ?_⟩
  rw [mem_blk]
  intro a
  match a with
  | ⟨0, _⟩ => show win0_5.index p (0 : Fin 2) * 8 ≤ (i 0).val ∧ (i 0).val < win0_5.index p (0 : Fin 2) * 8 + 8; omega
  | ⟨1, _⟩ => show win0_5.index p (1 : Fin 2) * 128 ≤ (i 1).val ∧ (i 1).val < win0_5.index p (1 : Fin 2) * 128 + 128; omega

/-- THE ARRAY the region leaves: the table of similarities, clips along the rows. -/
theorem final (c : Dev nD)
    (hs : (V m c main_v2 : S1x1.Idx → EReal) = fun _ => temp (m ((c : Thread nD τ).loc main_arg4))) :
    (dats m 0 c).arrAt 5 cfg0.N = table m c :=
  (dats m 0 c).arrAt_eq_of_cover 5 (table m c) (fun p _ => flushed_eq m c hs p) cover

end Cert.KernelIdeal.Table
end
-- ==== Proof.HostSide.lean ====
/-
  The host side of the program: what the lines around its one region compute.

  Before the region the lines form the clamped temperature `min (exp logit_scale) 100` and lay it out as a 1 × 1 array,
  which is what the region finds in its first window. After the region the one remaining line transposes the region's
  result array, so the program's result is the transpose of whatever the region leaves there; the five arguments are
  never written.
-/
import proofs.«161504_j36447092474557_1_alg».proof.Proof.Gen.KernelIdeal.Frame
import proofs.«161504_j36447092474557_1_alg».proof.Proof.Spec
import Idealize.ShloMosaic.Lib.StableHlo.Run
import Idealize.ShloMosaic.Lib.Pipeline.Value
import Idealize.ShloMosaic.Lib.ValueIdx

noncomputable section
namespace Cert.KernelIdeal.HostSide
open Idealize.ShloMosaic Idealize.ShloMosaic.TcCoe Idealize.SL.Sem Idealize.ShloMosaic.ValueIdx Cert.KernelIdeal Cert.KernelIdeal.Gen

/-- The region finds, everywhere in its first window's 1 × 1 array, the clamped temperature
    `min (exp logit_scale) 100`. -/
theorem scale_eq (m : (ℓ : Loc nD τ sig) → Buf (Elt Ideal) ℓ) (c : Dev nD) :
    (V m c main_v2 : S1x1.Idx → EReal) = fun _ => Cert.MaxSim.temp (m ((c : Thread nD τ).loc main_arg4)) := by
  show StableHlo.after hostOps0 (fun b => m (c, b)) (Proc.devRef .tc main_v2) = _
  after_results
  funext i
  show shapeCast S1x1 _ shapeCasts_S_S1x1 i = _
  unfold shapeCast
  generalize Shape.reshapeEquiv shapeCasts_S_S1x1 i = k
  rw [eq_ix0 k]
  rfl

/-- After the region the one remaining operation transposes the region's result: the last buffer holds the transpose
    of what the region's result array ends holding. -/
theorem tail_eq (m : (ℓ : Loc nD τ sig) → Buf (Elt Ideal) ℓ) (c : Dev nD) :
    Pipeline.afterTail₀ cfgs (dats m) 0 (V0 m) [hostOps1] c main_v4
      = transpose S256x256 [1, 0] ((dats m 0 c).arrAt 5 cfg0.N) transposes_S256x256_S256x256_1_0 := by
  unfold Pipeline.afterTail₀
  show StableHlo.after hostOps1 _ (Proc.devRef .tc main_v4) = _
  after_results
  refine congrArg (fun x => transpose S256x256 [1, 0] x transposes_S256x256_S256x256_1_0) ?_
  exact Pipeline.withArrays_arr spec0 launch0.win.arr_inj c _ _ 5

/-- Every run of the program ends with the last buffer at the transpose of the region's result array and the five
    arguments as launched. -/
theorem run_out (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v4) = transpose S256x256 [1, 0] ((dats m 0 c).arrAt 5 cfg0.N) transposes_S256x256_S256x256_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (tail_eq m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      (((h c).2 main_arg4 (Pipeline.mem_restRefs_of main_arg4 (by decide) (by decide))).trans (W_main_arg4 m (dats m) c))⟩)
    (run_main m ρ)

end Cert.KernelIdeal.HostSide
end
-- ==== Proof.KernelRun.lean ====
/-
  The kernel's program, end to end: every run leaves in its result the table of similarities with texts along the
  rows. The region leaves the table with clips along the rows (one block per grid point, the blocks tiling it), at
  the temperature the host lines before the region computed; the one host line after the region transposes it, and
  the transpose of the table by clips is the table by texts: entry `(t, v)` of either is the similarity of text `t`
  and clip `v`.
-/
import proofs.«161504_j36447092474557_1_alg».proof.Proof.Table
import proofs.«161504_j36447092474557_1_alg».proof.Proof.HostSide
import Idealize.ShloMosaic.Lib.ValueLayout

noncomputable section
namespace Cert.KernelIdeal.Result
open Idealize.ShloMosaic Idealize.ShloMosaic.TcCoe Idealize.SL.Sem Idealize.ShloMosaic.ValueIdx
open Cert.KernelIdeal Cert.KernelIdeal.Gen Cert.MaxSim

/-- Transposing the table with clips along the rows gives the table with texts along the rows. -/
theorem transpose_byClip (s : EReal) (tx cl : (Rows 256).Idx → EReal) (con : (Toks 256 32).Idx → EReal)
    (fr : (Toks 256 64).Idx → EReal) (h : S256x256.Transposes [1, 0] S256x256) :
    transpose S256x256 [1, 0] (byClip s tx cl con fr) h = byText s tx cl con fr := by
  funext i
  obtain ⟨t, v, rfl⟩ : ∃ (t : Fin 256) (v : Fin 256), i = ix2 t v := ⟨i 0, i 1, eq_ix2 i⟩
  exact (transpose_ix2_apply (byClip s tx cl con fr) h t v).trans rfl

/-- Every run of the kernel's program ends with its result at the table of similarities, texts along the rows, of
    the arguments as launched, and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v4)
        = byText (temp (m ((c.tc : Thread nD τ).loc main_arg4))) (m ((c.tc : Thread nD τ).loc main_arg0))
            (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (by
      rw [Table.final m c (HostSide.scale_eq m c)]
      exact transpose_byClip _ _ _ _ _ _), (h c).2⟩)
    (HostSide.run_out m ρ)

end Cert.KernelIdeal.Result
end
-- ==== Proof.RefValue.lean ====
/-
  The reference program's value, stage by stage, is the retrieval similarity of the specification.

  Every equality is on the extended reals and holds at every argument: no finiteness is used, and no algebra beyond
  `0 + x = x` for the zero each of the three sums starts from. For a text `t` and a clip `v`:

  * a token's sum of squares, its clamped norm `max (sqrt (Σ_d x²), 1e-12)` and its normalised features
    (`sumSq_*`, `norm_*`, `unit_*`, once for the concept tokens and once for the frames);
  * the contraction over the 512 features followed by the transposition, at (t, v, q, f), is the inner product of
    the normalised frame `f` of `v` with the normalised concept token `q` of `t` (`score_eq`);
  * the maximum over the 64 frames from −∞ is a fold of `max` over the last coordinate (`best_eq`);
  * the sum over the 32 concept tokens divided by 32 is the local similarity (`local_eq`), the contraction of the
    text's and the clip's embeddings the global one (`global_eq`), `min (exp logit_scale) 100` the temperature
    (`temp_eq`);
  * and `0.7 · (s · global) + 0.3 · (s · local)` is the table entry (`result_eq`).
-/
import proofs.«161504_j36447092474557_1_alg».proof.Proof.Gen.ReferenceIdeal.Read
import proofs.«161504_j36447092474557_1_alg».proof.Proof.Spec
import Idealize.ShloMosaic.Lib.ValueIdx
import Idealize.ShloMosaic.PureOps.Ideal.Laws
import Idealize.ShloMosaic.PureOps.Reduce

noncomputable section
namespace Cert.ReferenceIdeal.RefValue
open Idealize.ShloMosaic Idealize.ShloMosaic.ValueIdx Cert.ReferenceIdeal Cert.ReferenceIdeal.Gen Cert.ReferenceIdeal.Read

/-- The sum of squares of the 512 features of concept token `b` of text `a`. -/
theorem sumSq_concept (x2 : (⟨S256x32x512, .f32⟩ : BufTy).Contents (Elt Ideal)) (a : Fin 256) (b : Fin 32) :
    val_main_v7 (F := Ideal) x2 (ix2 a b) = ∑ d : Fin 512, x2 (ix3 a b d) * x2 (ix3 a b d) := by
  rw [val_main_v7_apply, val_main_cst_0_apply, Ideal.ofBits_def, Ideal.ofBits_zero_f32, zero_add]
  refine Finset.sum_congr rfl fun d _ => ?_
  rw [val_main_v6_apply, Ideal.mulf_def]
  have e : idx_main_v7 (ix2 a b) d = ix3 a b d :=
    funext fun c => Fin.ext (by match c with | ⟨0, _⟩ => rfl | ⟨1, _⟩ => rfl | ⟨2, _⟩ => rfl)
  rw [e]

/-- The clamped norm of a concept token, read off the reference's stages. -/
theorem norm_concept (x2 : (⟨S256x32x512, .f32⟩ : BufTy).Contents (Elt Ideal)) (a : Fin 256) (b : Fin 32) (c : Fin 1) :
    val_main_v11 (F := Ideal) x2 (ix3 a b c) = Cert.MaxSim.norm x2 a b := by
  rw [val_main_v11_apply, val_main_v9_apply, val_main_v8_apply, val_main_v10_apply, val_main_cst_1_apply]
  have e : idx_main_v8 (ix3 a b c) = ix2 a b :=
    funext fun k => Fin.ext (by match k with | ⟨0, _⟩ => rfl | ⟨1, _⟩ => rfl)
  rw [e, sumSq_concept]
  rfl

/-- Feature `d` of the normalised concept token. -/
theorem unit_concept (x2 : (⟨S256x32x512, .f32⟩ : BufTy).Contents (Elt Ideal)) (a : Fin 256) (b : Fin 32) (d : Fin 512) :
    val_main_v13 (F := Ideal) x2 (ix3 a b d) = Cert.MaxSim.unit x2 a b d := by
  rw [val_main_v13_apply, val_main_v12_apply, Ideal.hostDivf_def]
  have e : idx_main_v12 (ix3 a b d) = ix3 a b (0 : Fin 1) :=
    funext fun k => Fin.ext (by match k with | ⟨0, _⟩ => rfl | ⟨1, _⟩ => rfl | ⟨2, _⟩ => rfl)
  rw [e, norm_concept]
  rfl

/-- The sum of squares of the 512 features of frame `b` of clip `a`. -/
theorem sumSq_frame (x3 : (⟨S256x64x512, .f32⟩ : BufTy).Contents (Elt Ideal)) (a : Fin 256) (b : Fin 64) :
    val_main_v15 (F := Ideal) x3 (ix2 a b) = ∑ d : Fin 512, x3 (ix3 a b d) * x3 (ix3 a b d) := by
  rw [val_main_v15_apply, val_main_cst_2_apply, Ideal.ofBits_def, Ideal.ofBits_zero_f32, zero_add]
  refine Finset.sum_congr rfl fun d _ => ?_
  rw [val_main_v14_apply, Ideal.mulf_def]
  have e : idx_main_v15 (ix2 a b) d = ix3 a b d :=
    funext fun c => Fin.ext (by match c with | ⟨0, _⟩ => rfl | ⟨1, _⟩ => rfl | ⟨2, _⟩ => rfl)
  rw [e]

/-- The clamped norm of a frame, read off the reference's stages. -/
theorem norm_frame (x3 : (⟨S256x64x512, .f32⟩ : BufTy).Contents (Elt Ideal)) (a : Fin 256) (b : Fin 64) (c : Fin 1) :
    val_main_v19 (F := Ideal) x3 (ix3 a b c) = Cert.MaxSim.norm x3 a b := by
  rw [val_main_v19_apply, val_main_v17_apply, val_main_v16_apply, val_main_v18_apply, val_main_cst_3_apply]
  have e : idx_main_v16 (ix3 a b c) = ix2 a b :=
    funext fun k => Fin.ext (by match k with | ⟨0, _⟩ => rfl | ⟨1, _⟩ => rfl)
  rw [e, sumSq_frame]
  rfl

/-- Feature `d` of the normalised frame. -/
theorem unit_frame (x3 : (⟨S256x64x512, .f32⟩ : BufTy).Contents (Elt Ideal)) (a : Fin 256) (b : Fin 64) (d : Fin 512) :
    val_main_v21 (F := Ideal) x3 (ix3 a b d) = Cert.MaxSim.unit x3 a b d := by
  rw [val_main_v21_apply, val_main_v20_apply, Ideal.hostDivf_def]
  have e : idx_main_v20 (ix3 a b d) = ix3 a b (0 : Fin 1) :=
    funext fun k => Fin.ext (by match k with | ⟨0, _⟩ => rfl | ⟨1, _⟩ => rfl | ⟨2, _⟩ => rfl)
  rw [e, norm_frame]
  rfl

/-- The transposed contraction at (t, v, q, f) is the inner product of the normalised frame `f` of clip `v`
    with the normalised concept token `q` of text `t`, the factors in that order. -/
theorem score_eq (x2 : (⟨S256x32x512, .f32⟩ : BufTy).Contents (Elt Ideal)) (x3 : (⟨S256x64x512, .f32⟩ : BufTy).Contents (Elt Ideal))
    (t v : Fin 256) (q : Fin 32) (f : Fin 64) :
    val_main_v23 (F := Ideal) x2 x3 (ix4 t v q f) = Cert.MaxSim.score x2 x3 t v q f := by
  rw [val_main_v23_apply]
  have e : idx_main_v23 (ix4 t v q f) = ix4 v f t q :=
    funext fun k => Fin.ext (by match k with | ⟨0, _⟩ => rfl | ⟨1, _⟩ => rfl | ⟨2, _⟩ => rfl | ⟨3, _⟩ => rfl)
  rw [e, val_main_v22_apply]
  unfold Cert.MaxSim.score
  refine Finset.sum_congr rfl fun d _ => ?_
  have el : lidx_main_v22 (ix4 v f t q) d = ix3 v f d :=
    funext fun k => Fin.ext (by match k with | ⟨0, _⟩ => rfl | ⟨1, _⟩ => rfl | ⟨2, _⟩ => rfl)
  have er : ridx_main_v22 (ix4 v f t q) d = ix3 t q d :=
    funext fun k => Fin.ext (by match k with | ⟨0, _⟩ => rfl | ⟨1, _⟩ => rfl | ⟨2, _⟩ => rfl)
  rw [el, er, unit_frame, unit_concept]

/-- The reduced index (t, v, q) with frame `k` put back on the last axis is (t, v, q, k). -/
theorem lift_frames (h : S256x256x32x64.Reduces [3] S256x256x32) (t v : Fin 256) (q : Fin 32)
    (k : Fin (S256x256x32x64.size 3)) : h.lift (ix3 t v q) k = ix4 t v q (⟨k.val, k.isLt⟩ : Fin 64) := by
  funext c; apply Fin.ext
  fin_cases c <;> rfl

/-- The maximum over a clip's 64 frames, from −∞, of the scores of one concept token. -/
theorem best_eq (x2 : (⟨S256x32x512, .f32⟩ : BufTy).Contents (Elt Ideal)) (x3 : (⟨S256x64x512, .f32⟩ : BufTy).Contents (Elt Ideal))
    (t v : Fin 256) (q : Fin 32) :
    val_main_v24 (F := Ideal) x2 x3 (ix3 t v q) = Cert.MaxSim.best x2 x3 t v q := by
  have h : S256x256x32x64.Reduces [3] S256x256x32 := by decide
  unfold val_main_v24
  rw [Host.reduce_eq_fold_single FloatOps.maximumf _ _ reducesTo_S256x256x32x64_S256x256x32_d3 h h_S_]
  have hf : (val_main_v23 (F := Ideal) x2 x3 ∘ h.lift (ix3 t v q)) = fun f : Fin 64 => Cert.MaxSim.score x2 x3 t v q f :=
    funext fun k => (congrArg (val_main_v23 (F := Ideal) x2 x3) (lift_frames h t v q k)).trans (score_eq x2 x3 t v q _)
  exact congrArg (fun g => Finset.fold max (Ideal.ofBits .f32 0xFF800000#32) g (Finset.univ : Finset (Fin 64))) hf

/-- The mean over a text's 32 concept tokens of the best frame's score. -/
theorem local_eq (x2 : (⟨S256x32x512, .f32⟩ : BufTy).Contents (Elt Ideal)) (x3 : (⟨S256x64x512, .f32⟩ : BufTy).Contents (Elt Ideal))
    (t v : Fin 256) :
    val_main_v27 (F := Ideal) x2 x3 (ix2 t v) = Cert.MaxSim.localSim x2 x3 t v := by
  rw [val_main_v27_apply, val_main_v25_apply, val_main_v26_apply, val_main_cst_5_apply, val_main_cst_6_apply,
    Ideal.hostDivf_def, Ideal.ofBits_def, Ideal.ofBits_zero_f32, zero_add, Ideal.ofBits_def]
  unfold Cert.MaxSim.localSim
  refine congrArg (fun s => Ideal.div s (Ideal.ofBits .f32 0x42000000#32)) (Finset.sum_congr rfl fun q _ => ?_)
  have e : idx_main_v25 (ix2 t v) q = ix3 t v q :=
    funext fun k => Fin.ext (by match k with | ⟨0, _⟩ => rfl | ⟨1, _⟩ => rfl | ⟨2, _⟩ => rfl)
  rw [e, best_eq]

/-- The inner product of a text's and a clip's embeddings. -/
theorem global_eq (x0 x1 : (⟨S256x512, .f32⟩ : BufTy).Contents (Elt Ideal)) (t v : Fin 256) :
    val_main_v3 (F := Ideal) x0 x1 (ix2 t v) = Cert.MaxSim.globalSim x0 x1 t v := by
  rw [val_main_v3_apply]
  unfold Cert.MaxSim.globalSim
  refine Finset.sum_congr rfl fun d _ => ?_
  rw [val_main_v2_apply]
  have el : lidx_main_v3 (ix2 t v) d = ix2 t d :=
    funext fun k => Fin.ext (by match k with | ⟨0, _⟩ => rfl | ⟨1, _⟩ => rfl)
  have er : idx_main_v2 (ridx_main_v3 (ix2 t v) d) = ix2 v d :=
    funext fun k => Fin.ext (by match k with | ⟨0, _⟩ => rfl | ⟨1, _⟩ => rfl)
  rw [el, er]

/-- The clamped temperature, at the scalar's one index. -/
theorem temp_eq (x4 : (⟨S_, .f32⟩ : BufTy).Contents (Elt Ideal)) (i : S_.Idx) :
    val_main_v1 (F := Ideal) x4 i = Cert.MaxSim.temp x4 := by
  rw [eq_ix0 i, val_main_v1_apply, val_main_v0_apply, val_main_cst_apply]
  rfl

/-- The reference's last stage, at Ideal, is the table of similarities with texts along the rows. -/
theorem result_eq (x0 x1 : (⟨S256x512, .f32⟩ : BufTy).Contents (Elt Ideal)) (x2 : (⟨S256x32x512, .f32⟩ : BufTy).Contents (Elt Ideal))
    (x3 : (⟨S256x64x512, .f32⟩ : BufTy).Contents (Elt Ideal)) (x4 : (⟨S_, .f32⟩ : BufTy).Contents (Elt Ideal)) :
    val_main_v34 (F := Ideal) x0 x1 x2 x3 x4 = Cert.MaxSim.byText (Cert.MaxSim.temp x4) x0 x1 x2 x3 := by
  funext i
  obtain ⟨t, v, rfl⟩ : ∃ (t : Fin 256) (v : Fin 256), i = ix2 t v := ⟨i 0, i 1, eq_ix2 i⟩
  rw [val_main_v34_apply, val_main_v31_apply, val_main_v33_apply, val_main_v30_apply, val_main_v32_apply,
    val_main_cst_7_apply, val_main_cst_8_apply, val_main_v5_apply, val_main_v29_apply, val_main_v4_apply,
    val_main_v28_apply, temp_eq, global_eq, local_eq, Cert.MaxSim.byText_ix]
  rfl

end Cert.ReferenceIdeal.RefValue
end
-- ==== Proof.lean ====
/-
  A retrieval similarity in the style of late-interaction models, computed two ways, and the proof that the two
  programs compute one function of their arguments over the extended reals.

  For a text `t` and a clip `v` (256 of each):

    sim t v = 0.7 · (s · ⟨text t, clip v⟩) + 0.3 · (s · (1/32) Σ_q max_f ⟨framê v f, concept̂ t q⟩),

  `s = min (exp logit_scale) 100`, `x̂ = x / max (‖x‖, 1e-12)` over a token's 512 features, the maximum over a clip's
  64 frames (from −∞) and the mean over a text's 32 concept tokens (Proof/Spec.lean).

  The reference computes the table with texts along the rows by whole-array operations (Proof/RefValue.lean reads
  its stages one at a time). The kernel's program computes `s` on the host, fills the table with clips along the rows
  block by block — 8 clips × 128 texts per grid point of a 32 × 2 tiling, each block from the matching blocks of the
  four embedding arrays (Proof/Body.lean: the stored value at an entry; Proof/Table.lean: the blocks tile one table)
  — and transposes the result on the host (Proof/HostSide.lean, Proof/KernelRun.lean). The two sides agree literal
  by literal; they differ in the order of three products (`(c·t)·s` against `s·(t·c)`, `mean·s` against `s·mean`) and
  in the tiling, and multiplication of extended reals commutes: no finiteness of the inputs is used in the value
  claim. The idealization rewrote no operation, so `preserves` is `True`; the two kernel frames are the generated
  frame certificates, the reference's frame is its generated run with the result dropped.
-/
import proofs.«161504_j36447092474557_1_alg».proof.Defs
import proofs.«161504_j36447092474557_1_alg».proof.Proof.Gen.Kernel
import proofs.«161504_j36447092474557_1_alg».proof.Proof.Gen.Kernel.Skeleton
import proofs.«161504_j36447092474557_1_alg».proof.Proof.Gen.Kernel.Launch
import proofs.«161504_j36447092474557_1_alg».proof.Proof.Gen.Kernel.Points
import proofs.«161504_j36447092474557_1_alg».proof.Proof.Gen.Kernel.Frame
import proofs.«161504_j36447092474557_1_alg».proof.Proof.Gen.KernelIdeal
import proofs.«161504_j36447092474557_1_alg».proof.Proof.Gen.KernelIdeal.Skeleton
import proofs.«161504_j36447092474557_1_alg».proof.Proof.Gen.KernelIdeal.Launch
import proofs.«161504_j36447092474557_1_alg».proof.Proof.Gen.KernelIdeal.Points
import proofs.«161504_j36447092474557_1_alg».proof.Proof.Gen.KernelIdeal.Frame
import proofs.«161504_j36447092474557_1_alg».proof.Proof.Gen.ReferenceIdeal
import proofs.«161504_j36447092474557_1_alg».proof.Proof.Gen.ReferenceIdeal.Run
import proofs.«161504_j36447092474557_1_alg».proof.Proof.Gen.ReferenceIdeal.Read
import proofs.«161504_j36447092474557_1_alg».proof.Proof.Gen.Pre_finite_inputs
import proofs.«161504_j36447092474557_1_alg».proof.Proof.KernelRun
import proofs.«161504_j36447092474557_1_alg».proof.Proof.RefValue
import Idealize.ShloMosaic.Adequacy
import Idealize.ShloMosaic.Init

noncomputable section

namespace Cert.Proof

open Idealize.ShloMosaic Idealize.SL.Sem

/-- The kernel's program as printed runs, faults nowhere and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the table of similarities, texts along
    the rows, of those arguments: the kernel's by its run, the reference's by its run and its stages read as the
    same table. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
